-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x600000 32) (main_arg2 : FVec F S128x128 .f32) (main_arg3 : FVec F S128 .f32) (main_arg4 : FVec F S128x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x600000 : Shape := ⟨2, ![1, 600000]⟩
abbrev S600000 : Shape := ⟨1, ![600000]⟩
abbrev S700000 : Shape := ⟨1, ![700000]⟩
abbrev S_ : Shape := ⟨0, ![]⟩
abbrev S700000x1 : Shape := ⟨2, ![700000, 1]⟩
abbrev S5000x128 : Shape := ⟨2, ![5000, 128]⟩
abbrev S700000x128 : Shape := ⟨2, ![700000, 128]⟩
abbrev S1x128 : Shape := ⟨2, ![1, 128]⟩
abbrev S100000x64 : Shape := ⟨2, ![100000, 64]⟩
abbrev S5000x64 : Shape := ⟨2, ![5000, 64]⟩
abbrev S700000x64 : Shape := ⟨2, ![700000, 64]⟩
abbrev S1x64 : Shape := ⟨2, ![1, 64]⟩

abbrev nBuf : Space → Nat
  | .hbm => 84
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x600000, .i32⟩
  | .hbm, ⟨8, _⟩ => ⟨S600000, .i32⟩
  | .hbm, ⟨9, _⟩ => ⟨S700000, .i32⟩
  | .hbm, ⟨10, _⟩ => ⟨S1x600000, .i32⟩
  | .hbm, ⟨11, _⟩ => ⟨S600000, .i32⟩
  | .hbm, ⟨12, _⟩ => ⟨S700000, .i32⟩
  | .hbm, ⟨13, _⟩ => ⟨S_, .f32⟩
  | .hbm, ⟨14, _⟩ => ⟨S700000, .f32⟩
  | .hbm, ⟨15, _⟩ => ⟨S_, .f32⟩
  | .hbm, ⟨16, _⟩ => ⟨S100000, .f32⟩
  | .hbm, ⟨17, _⟩ => ⟨S700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S700000, .i32⟩
  | .hbm, ⟨29, _⟩ => ⟨S700000, .i1⟩
  | .hbm, ⟨30, _⟩ => ⟨S_, .i32⟩
  | .hbm, ⟨31, _⟩ => ⟨S700000, .i32⟩
  | .hbm, ⟨32, _⟩ => ⟨S700000, .i32⟩
  | .hbm, ⟨33, _⟩ => ⟨S700000, .i32⟩
  | .hbm, ⟨34, _⟩ => ⟨S700000x1, .i32⟩
  | .hbm, ⟨35, _⟩ => ⟨S700000, .f32⟩
  | .hbm, ⟨36, _⟩ => ⟨S_, .i32⟩
  | .hbm, ⟨37, _⟩ => ⟨S700000, .i32⟩
  | .hbm, ⟨38, _⟩ => ⟨S700000, .i1⟩
  | .hbm, ⟨39, _⟩ => ⟨S_, .i32⟩
  | .hbm, ⟨40, _⟩ => ⟨S700000, .i32⟩
  | .hbm, ⟨41, _⟩ => ⟨S700000, .i32⟩
  | .hbm, ⟨42, _⟩ => ⟨S700000, .i32⟩
  | .hbm, ⟨43, _⟩ => ⟨S700000x1, .i32⟩
  | .hbm, ⟨44, _⟩ => ⟨S700000, .f32⟩
  | .hbm, ⟨45, _⟩ => ⟨S700000, .f32⟩
  | .hbm, ⟨46, _⟩ => ⟨S100000x128, .f32⟩
  | .hbm, ⟨47, _⟩ => ⟨S_, .i32⟩
  | .hbm, ⟨48, _⟩ => ⟨S700000, .i32⟩
  | .hbm, ⟨49, _⟩ => ⟨S700000, .i1⟩
  | .hbm, ⟨50, _⟩ => ⟨S_, .i32⟩
  | .hbm, ⟨51, _⟩ => ⟨S700000, .i32⟩
  | .hbm, ⟨52, _⟩ => ⟨S700000, .i32⟩
  | .hbm, ⟨53, _⟩ => ⟨S700000, .i32⟩
  | .hbm, ⟨54, _⟩ => ⟨S700000x1, .i32⟩
  | .hbm, ⟨55, _⟩ => ⟨S700000x128, .f32⟩
  | .hbm, ⟨56, _⟩ => ⟨S700000x1, .f32⟩
  | .hbm, ⟨57, _⟩ => ⟨S700000x128, .f32⟩
  | .hbm, ⟨58, _⟩ => ⟨S700000x128, .f32⟩
  | .hbm, ⟨59, _⟩ => ⟨S_, .f32⟩
  | .hbm, ⟨60, _⟩ => ⟨S100000x128, .f32⟩
  | .hbm, ⟨61, _⟩ => ⟨S700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x64, .f32⟩
  | .hbm, ⟨66, _⟩ => ⟨S_, .i32⟩
  | .hbm, ⟨67, _⟩ => ⟨S700000, .i32⟩
  | .hbm, ⟨68, _⟩ => ⟨S700000, .i1⟩
  | .hbm, ⟨69, _⟩ => ⟨S_, .i32⟩
  | .hbm, ⟨70, _⟩ => ⟨S700000, .i32⟩
  | .hbm, ⟨71, _⟩ => ⟨S700000, .i32⟩
  | .hbm, ⟨72, _⟩ => ⟨S700000, .i32⟩
  | .hbm, ⟨73, _⟩ => ⟨S700000x1, .i32⟩
  | .hbm, ⟨74, _⟩ => ⟨S700000x64, .f32⟩
  | .hbm, ⟨75, _⟩ => ⟨S700000x1, .f32⟩
  | .hbm, ⟨76, _⟩ => ⟨S700000x64, .f32⟩
  | .hbm, ⟨77, _⟩ => ⟨S700000x64, .f32⟩
  | .hbm, ⟨78, _⟩ => ⟨S_, .f32⟩
  | .hbm, ⟨79, _⟩ => ⟨S100000x64, .f32⟩
  | .hbm, ⟨80, _⟩ => ⟨S700000x1, .i32⟩
  | .hbm, ⟨81, _⟩ => ⟨S100000x64, .f32⟩
  | .hbm, ⟨82, _⟩ => ⟨S1x64, .f32⟩
  | .hbm, ⟨83, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x600000_S1x600000_0_0 : S2x600000.Slices ![0, 0] S1x600000
  shapeCasts_S1x600000_S600000 : S1x600000.ShapeCasts S600000
  concatenates_S600000_S100000_S700000_d0 : Shape.Concatenates [S600000, S100000] S700000 0
  slices_S2x600000_S1x600000_1_0 : S2x600000.Slices ![1, 0] S1x600000
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S700000x1_S700000x64_0_1 : S700000x1.BroadcastsInDim S700000x64 (![0, 1] : Fin 2 → Fin S700000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  dot_S5000x128_S128x128_S5000x128_1_0_0_1_n_n_wf : DotDims.WF S5000x128 S128x128 S5000x128 [1] [0] [0] [1] [] []
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  dot_S5000x128_S128x64_S5000x64_1_0_0_1_n_n_wf : DotDims.WF S5000x128 S128x64 S5000x64 [1] [0] [0] [1] [] []
  gather_S100000x64_S700000x1_S700000x64_1_0_n_n_0_1_164_wf : GatherDims.WF S100000x64 S700000x1 S700000x64 [1] [0] [] [0] [] 1 ![1, 64]
  scatter_S100000x64_S700000x1_S700000x64_1_0_0_1_wf : ScatterDims.WF S100000x64 S700000x1 S700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S700000x1_S700000x64_1_0_n_n_0_1_164 : GatherDims S100000x64 S700000x1 S700000x64 where
  offsetDims := [1]
  collapsedSliceDims := [0]
  operandBatchingDims := []
  startIndicesBatchingDims := []
  startIndexMap := [0]
  indexVectorDim := 1
  sliceSizes := ![1, 64]
  wf := gather_S100000x64_S700000x1_S700000x64_1_0_n_n_0_1_164_wf
def scatter_S100000x64_S700000x1_S700000x64_1_0_0_1 : ScatterDims S100000x64 S700000x1 S700000x64 where
  updateWindowDims := [1]
  insertedWindowDims := [0]
  scatterDimsToOperandDims := [0]
  indexVectorDim := 1
  wf := scatter_S100000x64_S700000x1_S700000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x600000 : Shape := ⟨2, ![1, 600000]⟩
abbrev S600000 : Shape := ⟨1, ![600000]⟩
abbrev S700000 : Shape := ⟨1, ![700000]⟩
abbrev S_ : Shape := ⟨0, ![]⟩
abbrev S700000x1 : Shape := ⟨2, ![700000, 1]⟩
abbrev S700000x128 : Shape := ⟨2, ![700000, 128]⟩
abbrev S1x128 : Shape := ⟨2, ![1, 128]⟩
abbrev S100000x64 : Shape := ⟨2, ![100000, 64]⟩
abbrev S700000x64 : Shape := ⟨2, ![700000, 64]⟩
abbrev S1x64 : Shape := ⟨2, ![1, 64]⟩

abbrev nBuf : Space → Nat
  | .hbm => 89
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x600000, .i32⟩
  | .hbm, ⟨8, _⟩ => ⟨S600000, .i32⟩
  | .hbm, ⟨9, _⟩ => ⟨S700000, .i32⟩
  | .hbm, ⟨10, _⟩ => ⟨S1x600000, .i32⟩
  | .hbm, ⟨11, _⟩ => ⟨S600000, .i32⟩
  | .hbm, ⟨12, _⟩ => ⟨S700000, .i32⟩
  | .hbm, ⟨13, _⟩ => ⟨S_, .f32⟩
  | .hbm, ⟨14, _⟩ => ⟨S700000, .f32⟩
  | .hbm, ⟨15, _⟩ => ⟨S_, .f32⟩
  | .hbm, ⟨16, _⟩ => ⟨S100000, .f32⟩
  | .hbm, ⟨17, _⟩ => ⟨S700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S700000, .i32⟩
  | .hbm, ⟨29, _⟩ => ⟨S700000, .i1⟩
  | .hbm, ⟨30, _⟩ => ⟨S_, .i32⟩
  | .hbm, ⟨31, _⟩ => ⟨S700000, .i32⟩
  | .hbm, ⟨32, _⟩ => ⟨S700000, .i32⟩
  | .hbm, ⟨33, _⟩ => ⟨S700000, .i32⟩
  | .hbm, ⟨34, _⟩ => ⟨S700000x1, .i32⟩
  | .hbm, ⟨35, _⟩ => ⟨S700000, .f32⟩
  | .hbm, ⟨36, _⟩ => ⟨S_, .i32⟩
  | .hbm, ⟨37, _⟩ => ⟨S700000, .i32⟩
  | .hbm, ⟨38, _⟩ => ⟨S700000, .i1⟩
  | .hbm, ⟨39, _⟩ => ⟨S_, .i32⟩
  | .hbm, ⟨40, _⟩ => ⟨S700000, .i32⟩
  | .hbm, ⟨41, _⟩ => ⟨S700000, .i32⟩
  | .hbm, ⟨42, _⟩ => ⟨S700000, .i32⟩
  | .hbm, ⟨43, _⟩ => ⟨S700000x1, .i32⟩
  | .hbm, ⟨44, _⟩ => ⟨S700000, .f32⟩
  | .hbm, ⟨45, _⟩ => ⟨S700000, .f32⟩
  | .hbm, ⟨46, _⟩ => ⟨S100000x128, .f32⟩
  | .hbm, ⟨47, _⟩ => ⟨S_, .i32⟩
  | .hbm, ⟨48, _⟩ => ⟨S700000, .i32⟩
  | .hbm, ⟨49, _⟩ => ⟨S700000, .i1⟩
  | .hbm, ⟨50, _⟩ => ⟨S_, .i32⟩
  | .hbm, ⟨51, _⟩ => ⟨S700000, .i32⟩
  | .hbm, ⟨52, _⟩ => ⟨S700000, .i32⟩
  | .hbm, ⟨53, _⟩ => ⟨S700000, .i32⟩
  | .hbm, ⟨54, _⟩ => ⟨S700000x1, .i32⟩
  | .hbm, ⟨55, _⟩ => ⟨S700000x128, .f32⟩
  | .hbm, ⟨56, _⟩ => ⟨S700000x1, .f32⟩
  | .hbm, ⟨57, _⟩ => ⟨S700000x128, .f32⟩
  | .hbm, ⟨58, _⟩ => ⟨S700000x128, .f32⟩
  | .hbm, ⟨59, _⟩ => ⟨S_, .f32⟩
  | .hbm, ⟨60, _⟩ => ⟨S100000x128, .f32⟩
  | .hbm, ⟨61, _⟩ => ⟨S700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x64, .f32⟩
  | .hbm, ⟨70, _⟩ => ⟨S_, .i32⟩
  | .hbm, ⟨71, _⟩ => ⟨S700000, .i32⟩
  | .hbm, ⟨72, _⟩ => ⟨S700000, .i1⟩
  | .hbm, ⟨73, _⟩ => ⟨S_, .i32⟩
  | .hbm, ⟨74, _⟩ => ⟨S700000, .i32⟩
  | .hbm, ⟨75, _⟩ => ⟨S700000, .i32⟩
  | .hbm, ⟨76, _⟩ => ⟨S700000, .i32⟩
  | .hbm, ⟨77, _⟩ => ⟨S700000x1, .i32⟩
  | .hbm, ⟨78, _⟩ => ⟨S700000x64, .f32⟩
  | .hbm, ⟨79, _⟩ => ⟨S700000x1, .f32⟩
  | .hbm, ⟨80, _⟩ => ⟨S700000x64, .f32⟩
  | .hbm, ⟨81, _⟩ => ⟨S700000x64, .f32⟩
  | .hbm, ⟨82, _⟩ => ⟨S_, .f32⟩
  | .hbm, ⟨83, _⟩ => ⟨S100000x64, .f32⟩
  | .hbm, ⟨84, _⟩ => ⟨S700000x1, .i32⟩
  | .hbm, ⟨85, _⟩ => ⟨S100000x64, .f32⟩
  | .hbm, ⟨86, _⟩ => ⟨S1x64, .f32⟩
  | .hbm, ⟨87, _⟩ => ⟨S100000x64, .f32⟩
  | .hbm, ⟨88, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S100000_S700000_d0 : Shape.Concatenates [S600000, S100000] S700000 0
  slices_S2x600000_S1x600000_1_0 : S2x600000.Slices ![1, 0] S1x600000
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S700000x1_S700000x64_0_1 : S700000x1.BroadcastsInDim S700000x64 (![0, 1] : Fin 2 → Fin S700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  dot_S100000x128_S128x128_S100000x128_1_0_0_1_n_n_wf : DotDims.WF S100000x128 S128x128 S100000x128 [1] [0] [0] [1] [] []
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  dot_S100000x128_S128x64_S100000x64_1_0_0_1_n_n_wf : DotDims.WF S100000x128 S128x64 S100000x64 [1] [0] [0] [1] [] []
  gather_S100000x64_S700000x1_S700000x64_1_0_n_n_0_1_164_wf : GatherDims.WF S100000x64 S700000x1 S700000x64 [1] [0] [] [0] [] 1 ![1, 64]
  scatter_S100000x64_S700000x1_S700000x64_1_0_0_1_wf : ScatterDims.WF S100000x64 S700000x1 S700000x64 [1] [0] [0] 1

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S700000x1_S700000x64_1_0_n_n_0_1_164 : GatherDims S100000x64 S700000x1 S700000x64 where
  offsetDims := [1]
  collapsedSliceDims := [0]
  operandBatchingDims := []
  startIndicesBatchingDims := []
  startIndexMap := [0]
  indexVectorDim := 1
  sliceSizes := ![1, 64]
  wf := gather_S100000x64_S700000x1_S700000x64_1_0_n_n_0_1_164_wf
def scatter_S100000x64_S700000x1_S700000x64_1_0_0_1 : ScatterDims S100000x64 S700000x1 S700000x64 where
  updateWindowDims := [1]
  insertedWindowDims := [0]
  scatterDimsToOperandDims := [0]
  indexVectorDim := 1
  wf := scatter_S100000x64_S700000x1_S700000x64_1_0_0_1_wf

class Facts : Prop extends Facts₀ where

variable [Facts]
-- ==== Proof.ResultRun.lean ====
/-
  The kernel's run with its result named.

  @main is nine segments: three stretches of host operations, the first product's call, a stretch, the first
  epilogue's call, the second product's call, a stretch, the second epilogue's call. Every weakly fair execution
  runs them in order from the launch memory and terminates; after the last segment every unscoped buffer of the
  TensorCore holds the contents the fold of the segments leaves there: a stretch's operations applied to what it
  finds, a call's output array at what its 20 write-backs leave, every other buffer untouched. Read at the
  result's buffer this is the array the second epilogue's write-backs leave; read at an argument it is the
  launch contents, since no segment writes an argument.
-/
import proofs.«153278_j22428319219737_1_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at what the last
    call's write-backs leave (the fold's last boundary read at that buffer) and the arguments as launched. -/
theorem run : θ_run defs (onTc (τ := τ) (main (F := F))) ⟨m, fun _ => 0, ρ⟩ (fun r => ∀ c : Dev nD,
      r.2.mem ((c.tc : Thread nD τ).loc main_v61) = W9 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v61 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.ResultRun

end
-- ==== Proof.Product1.lean ====
/-
  The first dense product, block by block.

  The call's grid has 20 points; at point t the body multiplies rows 5000·t … 5000·t + 4999 of the node
  features X (a 5000 × 128 block) by the whole weight matrix W (128 × 128) into a zero accumulator, and
  writes the 5000 × 128 result back as the same rows of the output. On the extended reals the two
  roundings to a narrower format on the way into the product are the identity, so entry (p, q) of the
  block is  Σₖ X(5000·t + p, k) · W(k, q):  entry (5000·t + p, q) of the whole product X · W, which is what
  the reference's one `dot_general` computes. Row r of the output lies in the block of point r / 5000, so
  the 20 blocks cover the array and it ends holding X · W.
-/
import proofs.«153278_j22428319219737_1_alg».proof.Proof.Gen.KernelIdeal.Frame
import proofs.«153278_j22428319219737_1_alg».proof.Proof.RefReadPatched
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)

namespace Cert.KernelIdeal.Product1

open Cert.KernelIdeal Cert.KernelIdeal.Gen

variable (V : (c : Dev nD) → (b : Ref sig .tc) → Buf (Elt Ideal) ((c : Thread nD τ).loc b))

theorem zeros : (![0, 0] : Fin 2 → Nat) = fun _ => 0 := funext fun a => by fin_cases a <;> rfl

/-! ## One block's product at an index -/

/-- Row `j 0`, column `k` of the block of X. -/
abbrev rowOf (j : S5000x128.Idx) (k : Fin 128) : S5000x128.Idx := fun a => match a with
  | ⟨0, _⟩ => ⟨(j 0).val, (j 0).isLt⟩
  | ⟨1, _⟩ => ⟨k.val, k.isLt⟩
/-- Row `k`, column `j 1` of W. -/
abbrev colOf (j : S5000x128.Idx) (k : Fin 128) : S128x128.Idx := fun a => match a with
  | ⟨0, _⟩ => ⟨k.val, k.isLt⟩
  | ⟨1, _⟩ => ⟨(j 1).val, (j 1).isLt⟩

theorem lhs_row (j : S5000x128.Idx) (q : dot_S5000x128_S128x128_S5000x128_1_0_0_1_n_n.contr.Idx) :
    (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_col (j : S5000x128.Idx) (q : dot_S5000x128_S128x128_S5000x128_1_0_0_1_n_n.contr.Idx) :
    (dot_S5000x128_S128x128_S5000x128_1_0_0_1_n_n.lhsIdx j q 1).val = (q ⟨0, by decide⟩).val :=
  dot_S5000x128_S128x128_S5000x128_1_0_0_1_n_n.lhsIdx_val_of_single rfl j q
theorem rhs_row (j : S5000x128.Idx) (q : dot_S5000x128_S128x128_S5000x128_1_0_0_1_n_n.contr.Idx) :
    (dot_S5000x128_S128x128_S5000x128_1_0_0_1_n_n.rhsIdx j q 0).val = (q ⟨0, by decide⟩).val :=
  dot_S5000x128_S128x128_S5000x128_1_0_0_1_n_n.rhsIdx_val_of_single rfl j q
theorem rhs_col (j : S5000x128.Idx) (q : dot_S5000x128_S128x128_S5000x128_1_0_0_1_n_n.contr.Idx) :
    (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry `j` of what the body stores: the sum over k of (row j 0 of the X block) · (column j 1 of W). The zero
    accumulator adds nothing and the two format changes are the identity on the extended reals. -/
theorem stored_apply (x0 : Vec Ideal S5000x128 .f32) (x1 : Vec Ideal S128x128 .f32) (j : S5000x128.Idx) :
    k0_pay1 (F := Ideal) x0 x1 j = ∑ k : Fin 128, x0 (rowOf j k) * x1 (colOf j k) := by
  unfold k0_pay1
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = rowOf j k := funext fun a => Fin.ext (by
    match a with
    | ⟨0, _⟩ => exact lhs_row _ _
    | ⟨1, _⟩ => exact (lhs_col _ _).trans hk)
  have er : dot_S5000x128_S128x128_S5000x128_1_0_0_1_n_n.rhsIdx j ((ValueIdx.contrEquiv1 dot_S5000x128_S128x128_S5000x128_1_0_0_1_n_n 128 rfl rfl).symm k) = colOf j k := funext fun a => Fin.ext (by
    match a with
    | ⟨0, _⟩ => exact (rhs_row _ _).trans hk
    | ⟨1, _⟩ => exact rhs_col _ _)
  rw [el, er]
  rfl

/-! ## The blocks as rows of the arrays -/

/-- The printed index maps over the 20 points: the X block and the output block of point t are block row t, the
    W block is always block (0, 0). -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The X block of point t is rows 5000·t … of the array the region finds under the first operand. -/
theorem xblock_apply (c : Dev nD) (t : Fin cfg0.N) (y : S5000x128.Idx) (i : S100000x128.Idx)
    (h0 : (i 0).val = 5000 * t.val + (y 0).val) (h1 : (i 1).val = (y 1).val) :
    (iblk0 V c 0 t : Vec Ideal S5000x128 .f32) y = (V c main_arg0 : S100000x128.Idx → EReal) i := by
  obtain ⟨e0, e1, -⟩ := index_facts t
  unfold iblk0
  rw [View.read_apply]
  show V c main_arg0 _ = V c main_arg0 _
  congr 1
  funext a
  apply Fin.ext
  match a with
  | ⟨0, _⟩ => show win0_0.index t 0 * 5000 + 1 * (y 0).val = (i 0).val; rw [e0, h0]; omega
  | ⟨1, _⟩ => show win0_0.index t 1 * 128 + 1 * (y 1).val = (i 1).val; rw [e1, h1]; omega

/-- The W block of every point is the whole array under the second operand. -/
theorem wblock_apply (c : Dev nD) (t : Fin cfg0.N) (y : S128x128.Idx) (i : S128x128.Idx)
    (h0 : (i 0).val = (y 0).val) (h1 : (i 1).val = (y 1).val) :
    (iblk0 V c 1 t : Vec Ideal S128x128 .f32) y = (V c main_arg2 : S128x128.Idx → EReal) i := by
  obtain ⟨-, -, e0, e1, -⟩ := index_facts t
  unfold iblk0
  rw [View.read_apply]
  show V c main_arg2 _ = V c main_arg2 _
  congr 1
  funext a
  apply Fin.ext
  match a with
  | ⟨0, _⟩ => show win0_1.index t 0 * 128 + 1 * (y 0).val = (i 0).val; rw [e0, h0]; omega
  | ⟨1, _⟩ => show win0_1.index t 1 * 128 + 1 * (y 1).val = (i 1).val; rw [e1, h1]; omega

/-! ## What a point writes back, the cover, the array -/

/-- The whole product of the two arrays the region finds, in the reference's own spelling. -/
abbrev whole (c : Dev nD) : S100000x128.Idx → EReal :=
  Cert.ReferenceIdeal.ReadP.val_main_v30 (F := Ideal) (V c main_arg0) (V c main_arg2)

/-- Point t writes back rows 5000·t … of the whole product. -/
theorem flushed_eq (c : Dev nD) (t : Fin cfg0.N) :
    (dat0 V c).flushed 2 t = ((cfg0.win 2).blk t).view.read (Elt Ideal) (whole V c) := by
  obtain ⟨-, -, -, -, e0, e1⟩ := index_facts t
  show (cfg0.win 2).cut (grid0.coords t) ((dat0 V c).after 2 t) = _
  rw [after0_2]
  unfold out0_2
  rw [View.canon_unit_zero zeros]
  simp only [View.ld_unit_zero (S := S5000x128) zeros, View.ld_unit_zero (S := S128x128) zeros]
  funext j
  rw [View.read_apply]
  show k0_pay1 (F := Ideal) (iblk0 V c 0 t) (iblk0 V c 1 t) j = whole V c (((cfg0.win 2).blk t).view.emb j)
  rw [stored_apply]
  unfold whole
  rw [Cert.ReferenceIdeal.ReadP.val_main_v30_apply]
  refine Finset.sum_congr rfl fun k _ => ?_
  refine congrArg₂ (· * ·) ?_ ?_
  · refine xblock_apply V c t (rowOf j k) _ ?_ rfl
    show win0_2.index t 0 * 5000 + 1 * (j 0).val = 5000 * t.val + (j 0).val
    rw [e0]; omega
  · refine wblock_apply V c t (colOf j k) _ rfl ?_
    show win0_2.index t 1 * 128 + 1 * (j 1).val = (j 1).val
    rw [e1]; omega

/-- Row r is in the block of point r / 5000. -/
theorem covered (i : S100000x128.Idx) :
    ∃ t : Fin cfg0.N, (cfg0.win 2).flush t = true ∧ i ∈ ((cfg0.win 2).blk t).view.set := by
  have hN : grid0.N = 20 := N_0
  have hi0 : (i 0).val < 100000 := (i 0).isLt
  have hi1 : (i 1).val < 128 := (i 1).isLt
  let t : Fin cfg0.N := ⟨(i 0).val / 5000, by show (i 0).val / 5000 < grid0.N; rw [hN]; omega⟩
  obtain ⟨-, -, -, -, e0, e1⟩ := index_facts t
  refine ⟨t, flush0_2 t, ?_⟩
  show i ∈ ((View.whole main_v30).slice (win0_2.rect t)).set
  rw [View.set_slice_whole, Rect.mem_set_unit]
  intro a
  match a with
  | ⟨0, _⟩ =>
    show win0_2.index t 0 * 5000 ≤ (i 0).val ∧ (i 0).val < win0_2.index t 0 * 5000 + 5000
    rw [e0]; show (i 0).val / 5000 * 5000 ≤ (i 0).val ∧ (i 0).val < (i 0).val / 5000 * 5000 + 5000; omega
  | ⟨1, _⟩ =>
    show win0_2.index t 1 * 128 ≤ (i 1).val ∧ (i 1).val < win0_2.index t 1 * 128 + 128
    rw [e1]; omega

/-- After the call the output array holds the whole product of the two arrays the call found. -/
theorem array_eq (c : Dev nD) : (dat0 V c).arrAt 2 cfg0.N = whole V c :=
  (dat0 V c).arrAt_eq_of_cover 2 (whole V c) (fun t _ => flushed_eq V c t) (covered)

end Cert.KernelIdeal.Product1

end
-- ==== Proof.Epilogue1.lean ====
/-
  The first layer's epilogue, block by block: add the bias row, clamp below at zero.

  At point t the body loads rows 5000·t … 5000·t + 4999 of the aggregated features A (5000 × 128) and the
  whole 1 × 128 bias row b, and stores  max(A(p, q) + b(0, q), 0)  at (p, q): the same-shape casts are the
  identity, and broadcasting the row along the 5000 rows reads b(0, q) at every row. So the block is rows
  5000·t … of the array  i ↦ max(A(i) + b(0, i₁), 0),  and the 20 blocks cover the output.
-/
import proofs.«153278_j22428319219737_1_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.KernelIdeal.Epilogue1

open Cert.KernelIdeal Cert.KernelIdeal.Gen

variable (V : (c : Dev nD) → (b : Ref sig .tc) → Buf (Elt Ideal) ((c : Thread nD τ).loc b))

theorem zeros : (![0, 0] : Fin 2 → Nat) = fun _ => 0 := funext fun a => by fin_cases a <;> rfl

/-! ## One block's result at an index -/

/-- The entry of the 1 × 128 row above column `j 1`. -/
abbrev rowAt (j : S5000x128.Idx) : S1x128.Idx := fun a => match a with
  | ⟨0, _⟩ => ⟨0, Nat.one_pos⟩
  | ⟨1, _⟩ => ⟨(j 1).val, (j 1).isLt⟩

/-- Entry `j` of what the body stores: the block entry plus the row's entry above its column, clamped below at
    the zero the body splats. -/
theorem stored_apply (x0 : Vec Ideal S5000x128 .f32) (x1 : Vec Ideal S1x128 .f32) (j : S5000x128.Idx) :
    k1_pay1 (F := Ideal) x0 x1 j = max (x0 j + x1 (rowAt j)) (Ideal.ofBits .f32 0x00000000#32) := by
  have hb : broadcastTo S5000x128 x1 broadcasts_S1x128_S5000x128 j = x1 (rowAt j) :=
    broadcastTo_apply x1 broadcasts_S1x128_S5000x128 j (rowAt j) (fun a => match a with
      | ⟨0, _⟩ => by show (0 : Nat) = if (1 : Nat) = 1 then 0 else _; rw [if_pos rfl]
      | ⟨1, _⟩ => by show (j 1).val = if (128 : Nat) = 1 then 0 else _; rw [if_neg (by decide)]; rfl)
  unfold k1_pay1
  simp only [shapeCast_self]
  show max (x0 j + broadcastTo S5000x128 x1 broadcasts_S1x128_S5000x128 j) _ = _
  rw [hb]
  rfl

/-! ## The blocks as rows of the arrays -/

theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The A block of point t is rows 5000·t … of the array the region finds under the first operand. -/
theorem ablock_apply (c : Dev nD) (t : Fin cfg1.N) (y : S5000x128.Idx) (i : S100000x128.Idx)
    (h0 : (i 0).val = 5000 * t.val + (y 0).val) (h1 : (i 1).val = (y 1).val) :
    (iblk1 V c 0 t : Vec Ideal S5000x128 .f32) y = (V c main_v43 : S100000x128.Idx → EReal) i := by
  obtain ⟨e0, e1, -⟩ := index_facts t
  unfold iblk1
  rw [View.read_apply]
  show V c main_v43 _ = V c main_v43 _
  congr 1
  funext a
  apply Fin.ext
  match a with
  | ⟨0, _⟩ => show win1_0.index t 0 * 5000 + 1 * (y 0).val = (i 0).val; rw [e0, h0]; omega
  | ⟨1, _⟩ => show win1_0.index t 1 * 128 + 1 * (y 1).val = (i 1).val; rw [e1, h1]; omega

/-- The row block of every point is the whole 1 × 128 array under the second operand. -/
theorem rowblock_apply (c : Dev nD) (t : Fin cfg1.N) (y : S1x128.Idx) (i : S1x128.Idx)
    (h0 : (i 0).val = (y 0).val) (h1 : (i 1).val = (y 1).val) :
    (iblk1 V c 1 t : Vec Ideal S1x128 .f32) y = (V c main_v44 : S1x128.Idx → EReal) i := by
  obtain ⟨-, -, e0, e1, -⟩ := index_facts t
  unfold iblk1
  rw [View.read_apply]
  show V c main_v44 _ = V c main_v44 _
  congr 1
  funext a
  apply Fin.ext
  match a with
  | ⟨0, _⟩ => show win1_1.index t 0 * 1 + 1 * (y 0).val = (i 0).val; rw [e0, h0]; omega
  | ⟨1, _⟩ => show win1_1.index t 1 * 128 + 1 * (y 1).val = (i 1).val; rw [e1, h1]; omega

/-! ## What a point writes back, the cover, the array -/

/-- The entry of the 1 × 128 row above column `i 1` of the whole array. -/
abbrev rowOver (i : S100000x128.Idx) : S1x128.Idx := fun a => match a with
  | ⟨0, _⟩ => ⟨0, Nat.one_pos⟩
  | ⟨1, _⟩ => ⟨(i 1).val, (i 1).isLt⟩

/-- Add the row to every row of the array and clamp below at zero. -/
def rowwise (A : S100000x128.Idx → EReal) (b : S1x128.Idx → EReal) : S100000x128.Idx → EReal := fun i =>
  max (A i + b (rowOver i)) (Ideal.ofBits .f32 0x00000000#32)

/-- The whole epilogue of the two arrays the region finds. -/
abbrev whole (c : Dev nD) : S100000x128.Idx → EReal := rowwise (V c main_v43) (V c main_v44)

/-- Point t writes back rows 5000·t … of the whole epilogue. -/
theorem flushed_eq (c : Dev nD) (t : Fin cfg1.N) :
    (dat1 V c).flushed 2 t = ((cfg1.win 2).blk t).view.read (Elt Ideal) (whole V c) := by
  obtain ⟨-, -, -, -, e0, e1⟩ := index_facts t
  show (cfg1.win 2).cut (grid1.coords t) ((dat1 V c).after 2 t) = _
  rw [after1_2]
  unfold out1_2
  rw [View.canon_unit_zero zeros]
  simp only [View.ld_unit_zero (S := S5000x128) zeros, View.ld_unit_zero (S := S1x128) zeros]
  funext j
  rw [View.read_apply]
  show k1_pay1 (F := Ideal) (iblk1 V c 0 t) (iblk1 V c 1 t) j = whole V c (((cfg1.win 2).blk t).view.emb j)
  rw [stored_apply]
  unfold whole rowwise
  refine congrArg (max · (Ideal.ofBits .f32 0x00000000#32)) (congrArg₂ (· + ·) ?_ ?_)
  · refine ablock_apply V c t j _ ?_ ?_
    · show win1_2.index t 0 * 5000 + 1 * (j 0).val = 5000 * t.val + (j 0).val
      rw [e0]; omega
    · show win1_2.index t 1 * 128 + 1 * (j 1).val = (j 1).val
      rw [e1]; omega
  · refine rowblock_apply V c t (rowAt j) _ rfl ?_
    show win1_2.index t 1 * 128 + 1 * (j 1).val = (j 1).val
    rw [e1]; omega

/-- Row r is in the block of point r / 5000. -/
theorem covered (i : S100000x128.Idx) :
    ∃ t : Fin cfg1.N, (cfg1.win 2).flush t = true ∧ i ∈ ((cfg1.win 2).blk t).view.set := by
  have hN : grid1.N = 20 := N_1
  have hi0 : (i 0).val < 100000 := (i 0).isLt
  have hi1 : (i 1).val < 128 := (i 1).isLt
  let t : Fin cfg1.N := ⟨(i 0).val / 5000, by show (i 0).val / 5000 < grid1.N; rw [hN]; omega⟩
  obtain ⟨-, -, -, -, e0, e1⟩ := index_facts t
  refine ⟨t, flush1_2 t, ?_⟩
  show i ∈ ((View.whole main_v45).slice (win1_2.rect t)).set
  rw [View.set_slice_whole, Rect.mem_set_unit]
  intro a
  match a with
  | ⟨0, _⟩ =>
    show win1_2.index t 0 * 5000 ≤ (i 0).val ∧ (i 0).val < win1_2.index t 0 * 5000 + 5000
    rw [e0]; show (i 0).val / 5000 * 5000 ≤ (i 0).val ∧ (i 0).val < (i 0).val / 5000 * 5000 + 5000; omega
  | ⟨1, _⟩ =>
    show win1_2.index t 1 * 128 ≤ (i 1).val ∧ (i 1).val < win1_2.index t 1 * 128 + 128
    rw [e1]; omega

/-- After the call the output array holds the whole epilogue of the two arrays the call found. -/
theorem array_eq (c : Dev nD) : (dat1 V c).arrAt 2 cfg1.N = whole V c :=
  (dat1 V c).arrAt_eq_of_cover 2 (whole V c) (fun t _ => flushed_eq V c t) (covered)

end Cert.KernelIdeal.Epilogue1

end
-- ==== Proof.Product2.lean ====
/-
  The second dense product, block by block.

  At point t the body multiplies rows 5000·t … 5000·t + 4999 of the hidden features H (a 5000 × 128 block) by the
  whole weight matrix W (128 × 64) into a zero accumulator, and writes the 5000 × 64 result back as the same
  rows of the output. On the extended reals the roundings to a narrower format on the way into the product and
  the same-shape cast are the identity, so entry (p, q) of the block is  Σₖ H(5000·t + p, k) · W(k, q):  entry
  (5000·t + p, q) of the whole product H · W, which is what the reference's `dot_general` computes. Row r of
  the output lies in the block of point r / 5000, so the 20 blocks cover the array and it ends holding H · W.
-/
import proofs.«153278_j22428319219737_1_alg».proof.Proof.Gen.KernelIdeal.Frame
import proofs.«153278_j22428319219737_1_alg».proof.Proof.RefReadPatched
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)

namespace Cert.KernelIdeal.Product2

open Cert.KernelIdeal Cert.KernelIdeal.Gen

variable (V : (c : Dev nD) → (b : Ref sig .tc) → Buf (Elt Ideal) ((c : Thread nD τ).loc b))

theorem zeros : (![0, 0] : Fin 2 → Nat) = fun _ => 0 := funext fun a => by fin_cases a <;> rfl

/-! ## One block's product at an index -/

/-- Row `j 0`, column `k` of the block of H. -/
abbrev rowOf (j : S5000x64.Idx) (k : Fin 128) : S5000x128.Idx := fun a => match a with
  | ⟨0, _⟩ => ⟨(j 0).val, (j 0).isLt⟩
  | ⟨1, _⟩ => ⟨k.val, k.isLt⟩
/-- Row `k`, column `j 1` of W. -/
abbrev colOf (j : S5000x64.Idx) (k : Fin 128) : S128x64.Idx := fun a => match a with
  | ⟨0, _⟩ => ⟨k.val, k.isLt⟩
  | ⟨1, _⟩ => ⟨(j 1).val, (j 1).isLt⟩

theorem lhs_row (j : S5000x64.Idx) (q : dot_S5000x128_S128x64_S5000x64_1_0_0_1_n_n.contr.Idx) :
    (dot_S5000x128_S128x64_S5000x64_1_0_0_1_n_n.lhsIdx j q 0).val = (j 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs_col (j : S5000x64.Idx) (q : dot_S5000x128_S128x64_S5000x64_1_0_0_1_n_n.contr.Idx) :
    (dot_S5000x128_S128x64_S5000x64_1_0_0_1_n_n.lhsIdx j q 1).val = (q ⟨0, by decide⟩).val :=
  dot_S5000x128_S128x64_S5000x64_1_0_0_1_n_n.lhsIdx_val_of_single rfl j q
theorem rhs_row (j : S5000x64.Idx) (q : dot_S5000x128_S128x64_S5000x64_1_0_0_1_n_n.contr.Idx) :
    (dot_S5000x128_S128x64_S5000x64_1_0_0_1_n_n.rhsIdx j q 0).val = (q ⟨0, by decide⟩).val :=
  dot_S5000x128_S128x64_S5000x64_1_0_0_1_n_n.rhsIdx_val_of_single rfl j q
theorem rhs_col (j : S5000x64.Idx) (q : dot_S5000x128_S128x64_S5000x64_1_0_0_1_n_n.contr.Idx) :
    (dot_S5000x128_S128x64_S5000x64_1_0_0_1_n_n.rhsIdx j q 1).val = (j 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- Entry `j` of what the body stores: the sum over k of (row j 0 of the H block) · (column j 1 of W). The zero
    accumulator adds nothing, and the format changes and the same-shape cast are the identity on the extended reals. -/
theorem stored_apply (x0 : Vec Ideal S5000x128 .f32) (x1 : Vec Ideal S128x64 .f32) (j : S5000x64.Idx) :
    k2_pay1 (F := Ideal) x0 x1 j = ∑ k : Fin 128, x0 (rowOf j k) * x1 (colOf j k) := by
  unfold k2_pay1
  simp only [matmul, shapeCast_self]
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx j ((ValueIdx.contrEquiv1 dot_S5000x128_S128x64_S5000x64_1_0_0_1_n_n 128 rfl rfl).symm k) = rowOf j k := funext fun a => Fin.ext (by
    match a with
    | ⟨0, _⟩ => exact lhs_row _ _
    | ⟨1, _⟩ => exact (lhs_col _ _).trans hk)
  have er : dot_S5000x128_S128x64_S5000x64_1_0_0_1_n_n.rhsIdx j ((ValueIdx.contrEquiv1 dot_S5000x128_S128x64_S5000x64_1_0_0_1_n_n 128 rfl rfl).symm k) = colOf j k := funext fun a => Fin.ext (by
    match a with
    | ⟨0, _⟩ => exact (rhs_row _ _).trans hk
    | ⟨1, _⟩ => exact rhs_col _ _)
  rw [el, er]
  rfl

/-! ## The blocks as rows of the arrays -/

/-- The printed index maps over the 20 points: the H block and the output block of point t are block row t, the
    W block is always block (0, 0). -/
theorem index_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The H block of point t is rows 5000·t … of the array the region finds under the first operand. -/
theorem xblock_apply (c : Dev nD) (t : Fin cfg2.N) (y : S5000x128.Idx) (i : S100000x128.Idx)
    (h0 : (i 0).val = 5000 * t.val + (y 0).val) (h1 : (i 1).val = (y 1).val) :
    (iblk2 V c 0 t : Vec Ideal S5000x128 .f32) y = (V c main_v45 : S100000x128.Idx → EReal) i := by
  obtain ⟨e0, e1, -⟩ := index_facts t
  unfold iblk2
  rw [View.read_apply]
  show V c main_v45 _ = V c main_v45 _
  congr 1
  funext a
  apply Fin.ext
  match a with
  | ⟨0, _⟩ => show win2_0.index t 0 * 5000 + 1 * (y 0).val = (i 0).val; rw [e0, h0]; omega
  | ⟨1, _⟩ => show win2_0.index t 1 * 128 + 1 * (y 1).val = (i 1).val; rw [e1, h1]; omega

/-- The W block of every point is the whole array under the second operand. -/
theorem wblock_apply (c : Dev nD) (t : Fin cfg2.N) (y : S128x64.Idx) (i : S128x64.Idx)
    (h0 : (i 0).val = (y 0).val) (h1 : (i 1).val = (y 1).val) :
    (iblk2 V c 1 t : Vec Ideal S128x64 .f32) y = (V c main_arg4 : S128x64.Idx → EReal) i := by
  obtain ⟨-, -, e0, e1, -⟩ := index_facts t
  unfold iblk2
  rw [View.read_apply]
  show V c main_arg4 _ = V c main_arg4 _
  congr 1
  funext a
  apply Fin.ext
  match a with
  | ⟨0, _⟩ => show win2_1.index t 0 * 128 + 1 * (y 0).val = (i 0).val; rw [e0, h0]; omega
  | ⟨1, _⟩ => show win2_1.index t 1 * 64 + 1 * (y 1).val = (i 1).val; rw [e1, h1]; omega

/-! ## What a point writes back, the cover, the array -/

/-- The product of a 100000 × 128 array by a 128 × 64 one, in the reference's own spelling (its one `dot_general`). -/
def rowsTimes (H : S100000x128.Idx → EReal) (W : S128x64.Idx → EReal) : S100000x64.Idx → EReal :=
  Host.dotGeneral (F := Ideal) (φ₁ := .f32) (φ₂ := .f32) Cert.ReferenceIdeal.dot_S100000x128_S128x64_S100000x64_1_0_0_1_n_n none H W

/-- Entry `i` of it: the sum over k of row `i 0` of the left array times column `i 1` of the right one. -/
theorem rowsTimes_apply (H : S100000x128.Idx → EReal) (W : S128x64.Idx → EReal) (i : S100000x64.Idx) :
    rowsTimes H W i = ∑ k : Fin 128, H (Cert.ReferenceIdeal.ReadP.lidx_main_v48 i k) * W (Cert.ReferenceIdeal.ReadP.ridx_main_v48 i k) := by
  unfold rowsTimes
  simp only [Host.dotGeneral]
  rw [Ideal.dotGeneral_apply, ← Equiv.sum_comp (ValueIdx.contrEquiv1 Cert.ReferenceIdeal.dot_S100000x128_S128x64_S100000x64_1_0_0_1_n_n 128 rfl rfl).symm]
  refine Finset.sum_congr rfl fun k _ => ?_
  have hk := ValueIdx.contrEquiv1_symm_val Cert.ReferenceIdeal.dot_S100000x128_S128x64_S100000x64_1_0_0_1_n_n 128 rfl rfl k
  have el : Cert.ReferenceIdeal.dot_S100000x128_S128x64_S100000x64_1_0_0_1_n_n.lhsIdx i ((ValueIdx.contrEquiv1 Cert.ReferenceIdeal.dot_S100000x128_S128x64_S100000x64_1_0_0_1_n_n 128 rfl rfl).symm k) = Cert.ReferenceIdeal.ReadP.lidx_main_v48 i k := funext fun a => Fin.ext (by
    match a with
    | ⟨0, _⟩ => exact Cert.ReferenceIdeal.ReadP.lhs_main_v48_0 _ _
    | ⟨1, _⟩ => exact (Cert.ReferenceIdeal.ReadP.lhs_main_v48_1 _ _).trans hk)
  have er : Cert.ReferenceIdeal.dot_S100000x128_S128x64_S100000x64_1_0_0_1_n_n.rhsIdx i ((ValueIdx.contrEquiv1 Cert.ReferenceIdeal.dot_S100000x128_S128x64_S100000x64_1_0_0_1_n_n 128 rfl rfl).symm k) = Cert.ReferenceIdeal.ReadP.ridx_main_v48 i k := funext fun a => Fin.ext (by
    match a with
    | ⟨0, _⟩ => exact (Cert.ReferenceIdeal.ReadP.rhs_main_v48_0 _ _).trans hk
    | ⟨1, _⟩ => exact Cert.ReferenceIdeal.ReadP.rhs_main_v48_1 _ _)
  rw [el, er]

/-- The whole product of the two arrays the region finds. -/
abbrev whole (c : Dev nD) : S100000x64.Idx → EReal := rowsTimes (V c main_v45) (V c main_arg4)

/-- Point t writes back rows 5000·t … of the whole product. -/
theorem flushed_eq (c : Dev nD) (t : Fin cfg2.N) :
    (dat2 V c).flushed 2 t = ((cfg2.win 2).blk t).view.read (Elt Ideal) (whole V c) := by
  obtain ⟨-, -, -, -, e0, e1⟩ := index_facts t
  show (cfg2.win 2).cut (grid2.coords t) ((dat2 V c).after 2 t) = _
  rw [after2_2]
  unfold out2_2
  rw [View.canon_unit_zero zeros]
  simp only [View.ld_unit_zero (S := S5000x128) zeros, View.ld_unit_zero (S := S128x64) zeros]
  funext j
  rw [View.read_apply]
  show k2_pay1 (F := Ideal) (iblk2 V c 0 t) (iblk2 V c 1 t) j = whole V c (((cfg2.win 2).blk t).view.emb j)
  rw [stored_apply]
  unfold whole
  rw [rowsTimes_apply]
  refine Finset.sum_congr rfl fun k _ => ?_
  refine congrArg₂ (· * ·) ?_ ?_
  · refine xblock_apply V c t (rowOf j k) _ ?_ rfl
    show win2_2.index t 0 * 5000 + 1 * (j 0).val = 5000 * t.val + (j 0).val
    rw [e0]; omega
  · refine wblock_apply V c t (colOf j k) _ rfl ?_
    show win2_2.index t 1 * 64 + 1 * (j 1).val = (j 1).val
    rw [e1]; omega

/-- Row r is in the block of point r / 5000. -/
theorem covered (i : S100000x64.Idx) :
    ∃ t : Fin cfg2.N, (cfg2.win 2).flush t = true ∧ i ∈ ((cfg2.win 2).blk t).view.set := by
  have hN : grid2.N = 20 := N_2
  have hi0 : (i 0).val < 100000 := (i 0).isLt
  have hi1 : (i 1).val < 64 := (i 1).isLt
  let t : Fin cfg2.N := ⟨(i 0).val / 5000, by show (i 0).val / 5000 < grid2.N; rw [hN]; omega⟩
  obtain ⟨-, -, -, -, e0, e1⟩ := index_facts t
  refine ⟨t, flush2_2 t, ?_⟩
  show i ∈ ((View.whole main_v46).slice (win2_2.rect t)).set
  rw [View.set_slice_whole, Rect.mem_set_unit]
  intro a
  match a with
  | ⟨0, _⟩ =>
    show win2_2.index t 0 * 5000 ≤ (i 0).val ∧ (i 0).val < win2_2.index t 0 * 5000 + 5000
    rw [e0]; show (i 0).val / 5000 * 5000 ≤ (i 0).val ∧ (i 0).val < (i 0).val / 5000 * 5000 + 5000; omega
  | ⟨1, _⟩ =>
    show win2_2.index t 1 * 64 ≤ (i 1).val ∧ (i 1).val < win2_2.index t 1 * 64 + 64
    rw [e1]; omega

/-- After the call the output array holds the whole product of the two arrays the call found. -/
theorem array_eq (c : Dev nD) : (dat2 V c).arrAt 2 cfg2.N = whole V c :=
  (dat2 V c).arrAt_eq_of_cover 2 (whole V c) (fun t _ => flushed_eq V c t) (covered)

end Cert.KernelIdeal.Product2

end
-- ==== Proof.Epilogue2.lean ====
/-
  The second layer's epilogue, block by block: add the bias row.

  At point t the body loads rows 5000·t … 5000·t + 4999 of the aggregated features A (5000 × 64) and the
  whole 1 × 64 bias row b, and stores  A(p, q) + b(0, q)  at (p, q): the same-shape casts are the identity,
  and broadcasting the row along the 5000 rows reads b(0, q) at every row. So the block is rows 5000·t … of
  the array  i ↦ A(i) + b(0, i₁),  and the 20 blocks cover the output.
-/
import proofs.«153278_j22428319219737_1_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.KernelIdeal.Epilogue2

open Cert.KernelIdeal Cert.KernelIdeal.Gen

variable (V : (c : Dev nD) → (b : Ref sig .tc) → Buf (Elt Ideal) ((c : Thread nD τ).loc b))

theorem zeros : (![0, 0] : Fin 2 → Nat) = fun _ => 0 := funext fun a => by fin_cases a <;> rfl

/-! ## One block's result at an index -/

/-- The entry of the 1 × 64 row above column `j 1`. -/
abbrev rowAt (j : S5000x64.Idx) : S1x64.Idx := fun a => match a with
  | ⟨0, _⟩ => ⟨0, Nat.one_pos⟩
  | ⟨1, _⟩ => ⟨(j 1).val, (j 1).isLt⟩

/-- Entry `j` of what the body stores: the block entry plus the row's entry above its column. -/
theorem stored_apply (x0 : Vec Ideal S5000x64 .f32) (x1 : Vec Ideal S1x64 .f32) (j : S5000x64.Idx) :
    k3_pay1 (F := Ideal) x0 x1 j = x0 j + x1 (rowAt j) := by
  have hb : broadcastTo S5000x64 x1 broadcasts_S1x64_S5000x64 j = x1 (rowAt j) :=
    broadcastTo_apply x1 broadcasts_S1x64_S5000x64 j (rowAt j) (fun a => match a with
      | ⟨0, _⟩ => by show (0 : Nat) = if (1 : Nat) = 1 then 0 else _; rw [if_pos rfl]
      | ⟨1, _⟩ => by show (j 1).val = if (64 : Nat) = 1 then 0 else _; rw [if_neg (by decide)]; rfl)
  unfold k3_pay1
  simp only [shapeCast_self]
  show x0 j + broadcastTo S5000x64 x1 broadcasts_S1x64_S5000x64 j = _
  rw [hb]

/-! ## The blocks as rows of the arrays -/

theorem index_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The A block of point t is rows 5000·t … of the array the region finds under the first operand. -/
theorem ablock_apply (c : Dev nD) (t : Fin cfg3.N) (y : S5000x64.Idx) (i : S100000x64.Idx)
    (h0 : (i 0).val = 5000 * t.val + (y 0).val) (h1 : (i 1).val = (y 1).val) :
    (iblk3 V c 0 t : Vec Ideal S5000x64 .f32) y = (V c main_v59 : S100000x64.Idx → EReal) i := by
  obtain ⟨e0, e1, -⟩ := index_facts t
  unfold iblk3
  rw [View.read_apply]
  show V c main_v59 _ = V c main_v59 _
  congr 1
  funext a
  apply Fin.ext
  match a with
  | ⟨0, _⟩ => show win3_0.index t 0 * 5000 + 1 * (y 0).val = (i 0).val; rw [e0, h0]; omega
  | ⟨1, _⟩ => show win3_0.index t 1 * 64 + 1 * (y 1).val = (i 1).val; rw [e1, h1]; omega

/-- The row block of every point is the whole 1 × 64 array under the second operand. -/
theorem rowblock_apply (c : Dev nD) (t : Fin cfg3.N) (y : S1x64.Idx) (i : S1x64.Idx)
    (h0 : (i 0).val = (y 0).val) (h1 : (i 1).val = (y 1).val) :
    (iblk3 V c 1 t : Vec Ideal S1x64 .f32) y = (V c main_v60 : S1x64.Idx → EReal) i := by
  obtain ⟨-, -, e0, e1, -⟩ := index_facts t
  unfold iblk3
  rw [View.read_apply]
  show V c main_v60 _ = V c main_v60 _
  congr 1
  funext a
  apply Fin.ext
  match a with
  | ⟨0, _⟩ => show win3_1.index t 0 * 1 + 1 * (y 0).val = (i 0).val; rw [e0, h0]; omega
  | ⟨1, _⟩ => show win3_1.index t 1 * 64 + 1 * (y 1).val = (i 1).val; rw [e1, h1]; omega

/-! ## What a point writes back, the cover, the array -/

/-- The entry of the 1 × 64 row above column `i 1` of the whole array. -/
abbrev rowOver (i : S100000x64.Idx) : S1x64.Idx := fun a => match a with
  | ⟨0, _⟩ => ⟨0, Nat.one_pos⟩
  | ⟨1, _⟩ => ⟨(i 1).val, (i 1).isLt⟩

/-- Add the row to every row of the array. -/
def rowwise (A : S100000x64.Idx → EReal) (b : S1x64.Idx → EReal) : S100000x64.Idx → EReal := fun i =>
  A i + b (rowOver i)

/-- The whole epilogue of the two arrays the region finds. -/
abbrev whole (c : Dev nD) : S100000x64.Idx → EReal := rowwise (V c main_v59) (V c main_v60)

/-- Point t writes back rows 5000·t … of the whole epilogue. -/
theorem flushed_eq (c : Dev nD) (t : Fin cfg3.N) :
    (dat3 V c).flushed 2 t = ((cfg3.win 2).blk t).view.read (Elt Ideal) (whole V c) := by
  obtain ⟨-, -, -, -, e0, e1⟩ := index_facts t
  show (cfg3.win 2).cut (grid3.coords t) ((dat3 V c).after 2 t) = _
  rw [after3_2]
  unfold out3_2
  rw [View.canon_unit_zero zeros]
  simp only [View.ld_unit_zero (S := S5000x64) zeros, View.ld_unit_zero (S := S1x64) zeros]
  funext j
  rw [View.read_apply]
  show k3_pay1 (F := Ideal) (iblk3 V c 0 t) (iblk3 V c 1 t) j = whole V c (((cfg3.win 2).blk t).view.emb j)
  rw [stored_apply]
  unfold whole rowwise
  refine congrArg₂ (· + ·) ?_ ?_
  · refine ablock_apply V c t j _ ?_ ?_
    · show win3_2.index t 0 * 5000 + 1 * (j 0).val = 5000 * t.val + (j 0).val
      rw [e0]; omega
    · show win3_2.index t 1 * 64 + 1 * (j 1).val = (j 1).val
      rw [e1]; omega
  · refine rowblock_apply V c t (rowAt j) _ rfl ?_
    show win3_2.index t 1 * 64 + 1 * (j 1).val = (j 1).val
    rw [e1]; omega

/-- Row r is in the block of point r / 5000. -/
theorem covered (i : S100000x64.Idx) :
    ∃ t : Fin cfg3.N, (cfg3.win 2).flush t = true ∧ i ∈ ((cfg3.win 2).blk t).view.set := by
  have hN : grid3.N = 20 := N_3
  have hi0 : (i 0).val < 100000 := (i 0).isLt
  have hi1 : (i 1).val < 64 := (i 1).isLt
  let t : Fin cfg3.N := ⟨(i 0).val / 5000, by show (i 0).val / 5000 < grid3.N; rw [hN]; omega⟩
  obtain ⟨-, -, -, -, e0, e1⟩ := index_facts t
  refine ⟨t, flush3_2 t, ?_⟩
  show i ∈ ((View.whole main_v61).slice (win3_2.rect t)).set
  rw [View.set_slice_whole, Rect.mem_set_unit]
  intro a
  match a with
  | ⟨0, _⟩ =>
    show win3_2.index t 0 * 5000 ≤ (i 0).val ∧ (i 0).val < win3_2.index t 0 * 5000 + 5000
    rw [e0]; show (i 0).val / 5000 * 5000 ≤ (i 0).val ∧ (i 0).val < (i 0).val / 5000 * 5000 + 5000; omega
  | ⟨1, _⟩ =>
    show win3_2.index t 1 * 64 ≤ (i 1).val ∧ (i 1).val < win3_2.index t 1 * 64 + 64
    rw [e1]; omega

/-- After the call the output array holds the whole epilogue of the two arrays the call found. -/
theorem array_eq (c : Dev nD) : (dat3 V c).arrAt 2 cfg3.N = whole V c :=
  (dat3 V c).arrAt_eq_of_cover 2 (whole V c) (fun t _ => flushed_eq V c t) (covered)

end Cert.KernelIdeal.Epilogue2

end
-- ==== Proof.LibTypedRef.lean ====
/-
  Typed references to buffers.

  A typed reference is a buffer together with the fact that the buffer's type is a given one; contents at that type are
  carried to the buffer's own type and back along that fact. Carrying there and back changes nothing — for every typed
  reference, with no need to know which buffer it is. Operations of a called function read their operands and write
  their results through such references, so a chain of them nests these round trips; rewriting with this lemma removes
  every one of them.
-/
import Idealize.ShloMosaic.Lib.StableHlo

noncomputable section

namespace Cert.Lib.TypedRef

open Idealize.ShloMosaic

/-- Contents carried to a typed reference's buffer and back are unchanged. General: it holds of every typed reference
    `x` and every value `v` of its type (destructure `x`, substitute its type equation; the two transports are then along
    `rfl`). Use: `simp only [Cert.Lib.TypedRef.ofBuf_toBuf]` on what a chain of a called function's operations leaves. -/
theorem ofBuf_toBuf {sig : RefSig} {T : BufTy} {Val : EltTy → Type} (x : StableHlo.TRef sig T) (v : T.Contents Val) :
    x.ofBuf (x.toBuf v) = v := by
  obtain ⟨r, h, _, _⟩ := x
  subst h
  rfl

/-- The other round trip: contents of the buffer read at the reference's type and carried back are unchanged. -/
theorem toBuf_ofBuf {sig : RefSig} {T : BufTy} {Val : EltTy → Type} (x : StableHlo.TRef sig T) (v : x.ref.ty.Contents Val) :
    x.toBuf (x.ofBuf v) = v := by
  obtain ⟨r, h, _, _⟩ := x
  subst h
  rfl

end Cert.Lib.TypedRef

end
-- ==== Proof.Stretches.lean ====
/-
  The host stretches of the kernel's @main, read at the buffers the four calls consume.

  Before the first call the host builds, from the edge list alone, the source and destination vectors with the
  self-loops appended (700000 entries each) and the symmetric normalisation of each edge,
  norm(e) = d(src e)^(-1/2) · d(dst e)^(-1/2) with d the in-degree counted by a scatter-add of ones (and 0 where the
  degree is not positive). Between a product's call and the following epilogue's call it gathers the product's rows at
  the sources, scales row e by norm(e), and scatter-adds the rows into the destinations; it also reshapes the
  bias vector into a 1 × n row. These are, operation for operation, the reference's own host operations on the same
  operands, so each buffer a call consumes holds the reference's stage of the same arguments, provided the
  product the stretch starts from does. No stretch and no call writes an argument or the three edge vectors after
  they are made, so they are read back unchanged at every later boundary.
-/
import proofs.«153278_j22428319219737_1_alg».proof.Proof.Gen.KernelIdeal.Frame
import proofs.«153278_j22428319219737_1_alg».proof.Proof.RefReadPatched
import proofs.«153278_j22428319219737_1_alg».proof.Proof.LibTypedRef
import Idealize.ShloMosaic.Lib.StableHlo.Run

set_option maxRecDepth 16384

noncomputable section

namespace Cert.KernelIdeal.Stretches

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## At the first call's entry -/

/-- No operation before the first call writes argument 0. -/
theorem arg0_entry0 : W3 m ρ c (Proc.devRef .tc main_arg0) = (m ((c.tc : Thread nD τ).loc main_arg0)) := by
  show StableHlo.after hostOps0_2 (StableHlo.after hostOps0_1 (StableHlo.after hostOps0 (W0 m ρ c))) (Proc.devRef .tc main_arg0) = _
  simp only [hostOps0_2, hostOps0_1, hostOps0]
  after_results_simp <;> rfl
/-- No operation before the first call writes argument 2. -/
theorem arg2_entry0 : W3 m ρ c (Proc.devRef .tc main_arg2) = (m ((c.tc : Thread nD τ).loc main_arg2)) := by
  show StableHlo.after hostOps0_2 (StableHlo.after hostOps0_1 (StableHlo.after hostOps0 (W0 m ρ c))) (Proc.devRef .tc main_arg2) = _
  simp only [hostOps0_2, hostOps0_1, hostOps0]
  after_results_simp <;> rfl
/-- No operation before the first call writes argument 3. -/
theorem arg3_entry0 : W3 m ρ c (Proc.devRef .tc main_arg3) = (m ((c.tc : Thread nD τ).loc main_arg3)) := by
  show StableHlo.after hostOps0_2 (StableHlo.after hostOps0_1 (StableHlo.after hostOps0 (W0 m ρ c))) (Proc.devRef .tc main_arg3) = _
  simp only [hostOps0_2, hostOps0_1, hostOps0]
  after_results_simp <;> rfl
/-- No operation before the first call writes argument 4. -/
theorem arg4_entry0 : W3 m ρ c (Proc.devRef .tc main_arg4) = (m ((c.tc : Thread nD τ).loc main_arg4)) := by
  show StableHlo.after hostOps0_2 (StableHlo.after hostOps0_1 (StableHlo.after hostOps0 (W0 m ρ c))) (Proc.devRef .tc main_arg4) = _
  simp only [hostOps0_2, hostOps0_1, hostOps0]
  after_results_simp <;> rfl
/-- No operation before the first call writes argument 5. -/
theorem arg5_entry0 : W3 m ρ c (Proc.devRef .tc main_arg5) = (m ((c.tc : Thread nD τ).loc main_arg5)) := by
  show StableHlo.after hostOps0_2 (StableHlo.after hostOps0_1 (StableHlo.after hostOps0 (W0 m ρ c))) (Proc.devRef .tc main_arg5) = _
  simp only [hostOps0_2, hostOps0_1, hostOps0]
  after_results_simp <;> rfl

/-- The sources with the self-loops appended. -/
theorem src_entry0 : W3 m ρ c (Proc.devRef .tc main_v3) = Cert.ReferenceIdeal.ReadP.val_main_v3 (F := Ideal) (m ((c.tc : Thread nD τ).loc main_arg1)) := by
  show StableHlo.after hostOps0_2 (StableHlo.after hostOps0_1 (StableHlo.after hostOps0 (W0 m ρ c))) (Proc.devRef .tc main_v3) = _
  simp only [hostOps0_2, hostOps0_1, hostOps0]
  after_results_simp <;> rfl
/-- The destinations with the self-loops appended. -/
theorem dst_entry0 : W3 m ρ c (Proc.devRef .tc main_v6) = Cert.ReferenceIdeal.ReadP.val_main_v6 (F := Ideal) (m ((c.tc : Thread nD τ).loc main_arg1)) := by
  show StableHlo.after hostOps0_2 (StableHlo.after hostOps0_1 (StableHlo.after hostOps0 (W0 m ρ c))) (Proc.devRef .tc main_v6) = _
  simp only [hostOps0_2, hostOps0_1, hostOps0]
  after_results_simp <;> rfl
/-! ### The normalisation, one stretch at a time

The first stretch makes the two edge vectors, counts the in-degrees by a scatter-add of ones and tests and
inverts-and-roots them; the second selects the inverse root where the degree is positive and zero elsewhere; the third
gathers that at the sources and at the destinations and multiplies. Each stretch is the reference's operations on the
reference's stages, so its result is the reference's next stage. -/

theorem src_after0 : W1 m ρ c (Proc.devRef .tc main_v3) = Cert.ReferenceIdeal.ReadP.val_main_v3 (F := Ideal) (m ((c.tc : Thread nD τ).loc main_arg1)) := by
  show StableHlo.after hostOps0 (W0 m ρ c) (Proc.devRef .tc main_v3) = _
  simp only [hostOps0]
  after_results_simp <;> rfl
theorem dst_after0 : W1 m ρ c (Proc.devRef .tc main_v6) = Cert.ReferenceIdeal.ReadP.val_main_v6 (F := Ideal) (m ((c.tc : Thread nD τ).loc main_arg1)) := by
  show StableHlo.after hostOps0 (W0 m ρ c) (Proc.devRef .tc main_v6) = _
  simp only [hostOps0]
  after_results_simp <;> rfl
/-- Where the in-degree is positive. -/
theorem degpos_after0 : W1 m ρ c (Proc.devRef .tc main_v12) = Cert.ReferenceIdeal.ReadP.val_main_v12 (F := Ideal) (m ((c.tc : Thread nD τ).loc main_arg1)) := by
  show StableHlo.after hostOps0 (W0 m ρ c) (Proc.devRef .tc main_v12) = _
  simp only [hostOps0]
  after_results_simp <;> rfl
/-- The in-degree to the power -1/2. -/
theorem deginv_after0 : W1 m ρ c (Proc.devRef .tc main_v13) = Cert.ReferenceIdeal.ReadP.val_main_v13 (F := Ideal) (m ((c.tc : Thread nD τ).loc main_arg1)) := by
  show StableHlo.after hostOps0 (W0 m ρ c) (Proc.devRef .tc main_v13) = _
  simp only [hostOps0]
  after_results_simp <;> rfl
theorem zero_after0 : W1 m ρ c (Proc.devRef .tc main_cst_2) = Cert.ReferenceIdeal.ReadP.val_main_cst_2 (F := Ideal) := by
  show StableHlo.after hostOps0 (W0 m ρ c) (Proc.devRef .tc main_cst_2) = _
  simp only [hostOps0]
  after_results_simp <;> rfl

section AnyContents

variable (Wv : Valuation τ sig (Elt Ideal)) (e : (⟨Cert.ReferenceIdeal.S2x600000, .i32⟩ : BufTy).Contents (Elt Ideal))

/-- The second stretch: the selection, from the test, the inverse root and the zero — whatever those three are. The
    called function's operations read and write through typed references; the transports they leave are round trips,
    or transports along an equation between two spellings of one type. -/
theorem where_of (a : (⟨Cert.ReferenceIdeal.S100000, .i1⟩ : BufTy).Contents (Elt Ideal)) (b : (⟨Cert.ReferenceIdeal.S100000, .f32⟩ : BufTy).Contents (Elt Ideal)) (z : (⟨Cert.ReferenceIdeal.S_, .f32⟩ : BufTy).Contents (Elt Ideal))
    (hp : Wv (Proc.devRef .tc main_v12) = a) (hi : Wv (Proc.devRef .tc main_v13) = b) (hz : Wv (Proc.devRef .tc main_cst_2) = z) :
    StableHlo.after hostOps0_1 Wv (Proc.devRef .tc main_v14)
      = select a b (broadcastInDim Cert.ReferenceIdeal.S100000 ![] Cert.ReferenceIdeal.Gen.bcast_S_S100000 (id z)) := by
  simp only [hostOps0_1]
  after_results_simp
  simp only [Cert.Lib.TypedRef.ofBuf_toBuf]
  rw [hp, hi, hz]
  rfl

/-- The second stretch writes neither edge vector. -/
theorem src_kept0_1 : StableHlo.after hostOps0_1 Wv (Proc.devRef .tc main_v3) = Wv (Proc.devRef .tc main_v3) := by
  simp only [hostOps0_1]
  after_results_simp <;> rfl
theorem dst_kept0_1 : StableHlo.after hostOps0_1 Wv (Proc.devRef .tc main_v6) = Wv (Proc.devRef .tc main_v6) := by
  simp only [hostOps0_1]
  after_results_simp <;> rfl

/-- The third stretch: the selection gathered at the sources times the selection gathered at the destinations. -/
theorem norm_of (hs : Wv (Proc.devRef .tc main_v3) = Cert.ReferenceIdeal.ReadP.val_main_v3 (F := Ideal) e)
    (hd : Wv (Proc.devRef .tc main_v6) = Cert.ReferenceIdeal.ReadP.val_main_v6 (F := Ideal) e)
    (hw : Wv (Proc.devRef .tc main_v14) = Cert.ReferenceIdeal.ReadP.val_main_v14 (F := Ideal) e) :
    StableHlo.after hostOps0_2 Wv (Proc.devRef .tc main_v29) = Cert.ReferenceIdeal.ReadP.val_main_v29 (F := Ideal) e := by
  simp only [hostOps0_2]
  after_results_simp
  rw [hs, hd, hw]
  rfl

end AnyContents

/-- The normalisation of each edge. -/
theorem norm_entry0 : W3 m ρ c (Proc.devRef .tc main_v29) = Cert.ReferenceIdeal.ReadP.val_main_v29 (F := Ideal) (m ((c.tc : Thread nD τ).loc main_arg1)) :=
  norm_of (W2 m ρ c) (m ((c.tc : Thread nD τ).loc main_arg1))
    ((src_kept0_1 (W1 m ρ c)).trans (src_after0 m ρ c))
    ((dst_kept0_1 (W1 m ρ c)).trans (dst_after0 m ρ c))
    ((where_of (W1 m ρ c) _ _ _ (degpos_after0 m ρ c) (deginv_after0 m ρ c) (zero_after0 m ρ c)).trans rfl)

/-! ## At the first call's exit: the call writes only its output -/

theorem src_exit0 : W4 m ρ c (Proc.devRef .tc main_v3) = Cert.ReferenceIdeal.ReadP.val_main_v3 (F := Ideal) (m ((c.tc : Thread nD τ).loc main_arg1)) :=
  (W4_of_ne m ρ c main_v3 (by decide)).trans (src_entry0 m ρ c)
theorem dst_exit0 : W4 m ρ c (Proc.devRef .tc main_v6) = Cert.ReferenceIdeal.ReadP.val_main_v6 (F := Ideal) (m ((c.tc : Thread nD τ).loc main_arg1)) :=
  (W4_of_ne m ρ c main_v6 (by decide)).trans (dst_entry0 m ρ c)
theorem norm_exit0 : W4 m ρ c (Proc.devRef .tc main_v29) = Cert.ReferenceIdeal.ReadP.val_main_v29 (F := Ideal) (m ((c.tc : Thread nD τ).loc main_arg1)) :=
  (W4_of_ne m ρ c main_v29 (by decide)).trans (norm_entry0 m ρ c)
theorem arg3_exit0 : W4 m ρ c (Proc.devRef .tc main_arg3) = (m ((c.tc : Thread nD τ).loc main_arg3)) :=
  (W4_of_ne m ρ c main_arg3 (by decide)).trans (arg3_entry0 m ρ c)
theorem arg4_exit0 : W4 m ρ c (Proc.devRef .tc main_arg4) = (m ((c.tc : Thread nD τ).loc main_arg4)) :=
  (W4_of_ne m ρ c main_arg4 (by decide)).trans (arg4_entry0 m ρ c)
theorem arg5_exit0 : W4 m ρ c (Proc.devRef .tc main_arg5) = (m ((c.tc : Thread nD τ).loc main_arg5)) :=
  (W4_of_ne m ρ c main_arg5 (by decide)).trans (arg5_entry0 m ρ c)

/-! ## The stretch between the first product and the first epilogue -/

/-- The first aggregation: the product's rows gathered at the sources, scaled by the edge's normalisation and
    scatter-added into the destinations, is the reference's stage, when the product is. -/
theorem agg1_entry1 (h : W4 m ρ c (Proc.devRef .tc main_v30) = Cert.ReferenceIdeal.ReadP.val_main_v30 (F := Ideal) (m ((c.tc : Thread nD τ).loc main_arg0)) (m ((c.tc : Thread nD τ).loc main_arg2))) :
    W5 m ρ c (Proc.devRef .tc main_v43) = Cert.ReferenceIdeal.ReadP.val_main_v43 (F := Ideal) (m ((c.tc : Thread nD τ).loc main_arg0)) (m ((c.tc : Thread nD τ).loc main_arg1)) (m ((c.tc : Thread nD τ).loc main_arg2)) := by
  show StableHlo.after hostOps1 (W4 m ρ c) (Proc.devRef .tc main_v43) = _
  simp only [hostOps1]
  after_results_simp
  rw [h, src_exit0 m ρ c, dst_exit0 m ρ c, norm_exit0 m ρ c]
  rfl

/-- The first bias as a 1 × 128 row. -/
theorem row1_entry1 : W5 m ρ c (Proc.devRef .tc main_v44) = shapeCast S1x128 (m ((c.tc : Thread nD τ).loc main_arg3)) shapeCasts_S128_S1x128 := by
  show StableHlo.after hostOps1 (W4 m ρ c) (Proc.devRef .tc main_v44) = _
  simp only [hostOps1]
  after_results_simp
  rw [arg3_exit0 m ρ c]
  rfl

/-- The stretch writes none of the edge vectors and no argument. -/
theorem src_kept1 : W5 m ρ c (Proc.devRef .tc main_v3) = W4 m ρ c (Proc.devRef .tc main_v3) := by
  show StableHlo.after hostOps1 (W4 m ρ c) (Proc.devRef .tc main_v3) = _
  simp only [hostOps1]
  after_results_simp <;> rfl
theorem dst_kept1 : W5 m ρ c (Proc.devRef .tc main_v6) = W4 m ρ c (Proc.devRef .tc main_v6) := by
  show StableHlo.after hostOps1 (W4 m ρ c) (Proc.devRef .tc main_v6) = _
  simp only [hostOps1]
  after_results_simp <;> rfl
theorem norm_kept1 : W5 m ρ c (Proc.devRef .tc main_v29) = W4 m ρ c (Proc.devRef .tc main_v29) := by
  show StableHlo.after hostOps1 (W4 m ρ c) (Proc.devRef .tc main_v29) = _
  simp only [hostOps1]
  after_results_simp <;> rfl
theorem arg4_kept1 : W5 m ρ c (Proc.devRef .tc main_arg4) = W4 m ρ c (Proc.devRef .tc main_arg4) := by
  show StableHlo.after hostOps1 (W4 m ρ c) (Proc.devRef .tc main_arg4) = _
  simp only [hostOps1]
  after_results_simp <;> rfl
theorem arg5_kept1 : W5 m ρ c (Proc.devRef .tc main_arg5) = W4 m ρ c (Proc.devRef .tc main_arg5) := by
  show StableHlo.after hostOps1 (W4 m ρ c) (Proc.devRef .tc main_arg5) = _
  simp only [hostOps1]
  after_results_simp <;> rfl

/-! ## At the second product's entry and exit: the two calls write only their outputs -/

/-- The second weight matrix, as the second product's call finds it. -/
theorem arg4_entry2 : W6 m ρ c (Proc.devRef .tc main_arg4) = (m ((c.tc : Thread nD τ).loc main_arg4)) :=
  (W6_of_ne m ρ c main_arg4 (by decide)).trans ((arg4_kept1 m ρ c).trans (arg4_exit0 m ρ c))

theorem src_exit2 : W7 m ρ c (Proc.devRef .tc main_v3) = Cert.ReferenceIdeal.ReadP.val_main_v3 (F := Ideal) (m ((c.tc : Thread nD τ).loc main_arg1)) :=
  (W7_of_ne m ρ c main_v3 (by decide)).trans ((W6_of_ne m ρ c main_v3 (by decide)).trans ((src_kept1 m ρ c).trans (src_exit0 m ρ c)))
theorem dst_exit2 : W7 m ρ c (Proc.devRef .tc main_v6) = Cert.ReferenceIdeal.ReadP.val_main_v6 (F := Ideal) (m ((c.tc : Thread nD τ).loc main_arg1)) :=
  (W7_of_ne m ρ c main_v6 (by decide)).trans ((W6_of_ne m ρ c main_v6 (by decide)).trans ((dst_kept1 m ρ c).trans (dst_exit0 m ρ c)))
theorem norm_exit2 : W7 m ρ c (Proc.devRef .tc main_v29) = Cert.ReferenceIdeal.ReadP.val_main_v29 (F := Ideal) (m ((c.tc : Thread nD τ).loc main_arg1)) :=
  (W7_of_ne m ρ c main_v29 (by decide)).trans ((W6_of_ne m ρ c main_v29 (by decide)).trans ((norm_kept1 m ρ c).trans (norm_exit0 m ρ c)))
theorem arg5_exit2 : W7 m ρ c (Proc.devRef .tc main_arg5) = (m ((c.tc : Thread nD τ).loc main_arg5)) :=
  (W7_of_ne m ρ c main_arg5 (by decide)).trans ((W6_of_ne m ρ c main_arg5 (by decide)).trans ((arg5_kept1 m ρ c).trans (arg5_exit0 m ρ c)))

/-! ## The stretch between the second product and the second epilogue -/

/-- The second aggregation is the reference's stage, when the second product is. -/
theorem agg2_entry3 (h : W7 m ρ c (Proc.devRef .tc main_v46) = Cert.ReferenceIdeal.ReadP.val_main_v48 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) :
    W8 m ρ c (Proc.devRef .tc main_v59) = Cert.ReferenceIdeal.ReadP.val_main_v61 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  show StableHlo.after hostOps3 (W7 m ρ c) (Proc.devRef .tc main_v59) = _
  simp only [hostOps3]
  after_results_simp
  rw [h, src_exit2 m ρ c, dst_exit2 m ρ c, norm_exit2 m ρ c]
  rfl

/-- The second bias as a 1 × 64 row. -/
theorem row2_entry3 : W8 m ρ c (Proc.devRef .tc main_v60) = shapeCast S1x64 (m ((c.tc : Thread nD τ).loc main_arg5)) shapeCasts_S64_S1x64 := by
  show StableHlo.after hostOps3 (W7 m ρ c) (Proc.devRef .tc main_v60) = _
  simp only [hostOps3]
  after_results_simp
  rw [arg5_exit2 m ρ c]
  rfl

end Cert.KernelIdeal.Stretches

end
-- ==== Proof.Bridge.lean ====
/-
  The kernel's result array is the reference's, as one function of the launch arguments.

  Walk the kernel's @main from the launch. The first call leaves X · W₁ in its output (the 20 row blocks of the
  product cover it). The stretch after it turns that into the first aggregation, the reference's own operations on
  the same operands. The first epilogue's call leaves  max(agg₁ + b₁, 0)  row by row — the kernel reads the bias
  through a 1 × 128 reshape and a broadcast along the rows, the reference through two broadcasts, and both read
  b₁ at the column. The second product's call leaves that times W₂, the next stretch the second aggregation,
  and the last call adds b₂ along the rows. At every step the buffer holds the reference's stage of the same
  arguments, so the result buffer ends at the reference's last stage. Only the identity of a row block of a
  product with the product of the row block, and of a pointwise operation with its restriction to rows, is
  used: no law of the extended reals that could fail at an infinity, so finiteness of the inputs is not needed.
-/
import proofs.«153278_j22428319219737_1_alg».proof.Proof.Product1
import proofs.«153278_j22428319219737_1_alg».proof.Proof.Epilogue1
import proofs.«153278_j22428319219737_1_alg».proof.Proof.Product2
import proofs.«153278_j22428319219737_1_alg».proof.Proof.Epilogue2
import proofs.«153278_j22428319219737_1_alg».proof.Proof.Stretches

set_option maxRecDepth 16384

noncomputable section

namespace Cert.KernelIdeal.Bridge

open Cert.KernelIdeal Cert.KernelIdeal.Gen
open Idealize.ShloMosaic Idealize.ShloMosaic.TcCoe Idealize.SL.Sem

/-! ## The kernel's whole-array functions at the reference's stages -/

/-- Adding the bias through a 1 × 128 reshape and clamping is the reference's add of the twice-broadcast bias
    followed by its maximum with the broadcast zero: both read the bias at the column. -/
theorem epilogue1_ref (x0 : (⟨Cert.ReferenceIdeal.S100000x128, .f32⟩ : BufTy).Contents (Elt Ideal)) (x1 : (⟨Cert.ReferenceIdeal.S2x600000, .i32⟩ : BufTy).Contents (Elt Ideal)) (x2 : (⟨Cert.ReferenceIdeal.S128x128, .f32⟩ : BufTy).Contents (Elt Ideal)) (x3 : (⟨Cert.ReferenceIdeal.S128, .f32⟩ : BufTy).Contents (Elt Ideal)) :
    Epilogue1.rowwise (Cert.ReferenceIdeal.ReadP.val_main_v43 (F := Ideal) x0 x1 x2) (shapeCast S1x128 x3 shapeCasts_S128_S1x128)
      = Cert.ReferenceIdeal.ReadP.val_main_v47 (F := Ideal) x0 x1 x2 x3 := by
  funext i
  have hrow : shapeCast S1x128 x3 shapeCasts_S128_S1x128 (Epilogue1.rowOver i) = x3 (Cert.ReferenceIdeal.ReadP.idx_main_v44 (Cert.ReferenceIdeal.ReadP.idx_main_v45 i)) :=
    shapeCast_apply x3 shapeCasts_S128_S1x128 (Epilogue1.rowOver i) (Cert.ReferenceIdeal.ReadP.idx_main_v44 (Cert.ReferenceIdeal.ReadP.idx_main_v45 i)) (by
      rw [Shape.rowMajor_val_two, Shape.rowMajor_val_one]; show (i 1).val = 0 * 128 + (i 1).val; omega)
  rw [Cert.ReferenceIdeal.ReadP.val_main_v47_apply, Cert.ReferenceIdeal.ReadP.val_main_v46_apply, Cert.ReferenceIdeal.ReadP.val_main_v45_apply, Cert.ReferenceIdeal.ReadP.val_main_v44_apply,
    Cert.ReferenceIdeal.ReadP.val_main_call1_v0_apply, Cert.ReferenceIdeal.ReadP.val_main_call1_cst_apply]
  unfold Epilogue1.rowwise
  rw [hrow]
  rfl

/-- The product of the hidden features by the second weights is the reference's `dot_general` of them. -/
theorem product2_ref (x0 : (⟨Cert.ReferenceIdeal.S100000x128, .f32⟩ : BufTy).Contents (Elt Ideal)) (x1 : (⟨Cert.ReferenceIdeal.S2x600000, .i32⟩ : BufTy).Contents (Elt Ideal)) (x2 : (⟨Cert.ReferenceIdeal.S128x128, .f32⟩ : BufTy).Contents (Elt Ideal)) (x3 : (⟨Cert.ReferenceIdeal.S128, .f32⟩ : BufTy).Contents (Elt Ideal)) (x4 : (⟨Cert.ReferenceIdeal.S128x64, .f32⟩ : BufTy).Contents (Elt Ideal)) :
    Product2.rowsTimes (Cert.ReferenceIdeal.ReadP.val_main_v47 (F := Ideal) x0 x1 x2 x3) x4 = Cert.ReferenceIdeal.ReadP.val_main_v48 (F := Ideal) x0 x1 x2 x3 x4 := rfl

/-- Adding the bias through a 1 × 64 reshape is the reference's add of the twice-broadcast bias. -/
theorem epilogue2_ref (x0 : (⟨Cert.ReferenceIdeal.S100000x128, .f32⟩ : BufTy).Contents (Elt Ideal)) (x1 : (⟨Cert.ReferenceIdeal.S2x600000, .i32⟩ : BufTy).Contents (Elt Ideal)) (x2 : (⟨Cert.ReferenceIdeal.S128x128, .f32⟩ : BufTy).Contents (Elt Ideal)) (x3 : (⟨Cert.ReferenceIdeal.S128, .f32⟩ : BufTy).Contents (Elt Ideal)) (x4 : (⟨Cert.ReferenceIdeal.S128x64, .f32⟩ : BufTy).Contents (Elt Ideal)) (x5 : (⟨Cert.ReferenceIdeal.S64, .f32⟩ : BufTy).Contents (Elt Ideal)) :
    Epilogue2.rowwise (Cert.ReferenceIdeal.ReadP.val_main_v61 (F := Ideal) x0 x1 x2 x3 x4) (shapeCast S1x64 x5 shapeCasts_S64_S1x64)
      = Cert.ReferenceIdeal.ReadP.val_main_v64 (F := Ideal) x0 x1 x2 x3 x4 x5 := by
  funext i
  have hrow : shapeCast S1x64 x5 shapeCasts_S64_S1x64 (Epilogue2.rowOver i) = x5 (Cert.ReferenceIdeal.ReadP.idx_main_v62 (Cert.ReferenceIdeal.ReadP.idx_main_v63 i)) :=
    shapeCast_apply x5 shapeCasts_S64_S1x64 (Epilogue2.rowOver i) (Cert.ReferenceIdeal.ReadP.idx_main_v62 (Cert.ReferenceIdeal.ReadP.idx_main_v63 i)) (by
      rw [Shape.rowMajor_val_two, Shape.rowMajor_val_one]; show (i 1).val = 0 * 64 + (i 1).val; omega)
  rw [Cert.ReferenceIdeal.ReadP.val_main_v64_apply, Cert.ReferenceIdeal.ReadP.val_main_v63_apply, Cert.ReferenceIdeal.ReadP.val_main_v62_apply]
  unfold Epilogue2.rowwise
  rw [hrow]
  rfl

/-! ## From the last boundary back to the launch -/

variable (m : (ℓ : Loc nD τ sig) → Buf (Elt Ideal) ℓ) (ρ : Dev nD → PrngReg) (c : Dev nD)

/-- What the last call's write-backs leave in the result buffer is the reference's last stage of the launch
    arguments. -/
theorem result_eq : W9 m ρ c (Proc.devRef .tc main_v61)
    = Cert.ReferenceIdeal.ReadP.val_main_v64 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  have h30 : W4 m ρ c (Proc.devRef .tc main_v30) = Cert.ReferenceIdeal.ReadP.val_main_v30 (F := Ideal) (m ((c.tc : Thread nD τ).loc main_arg0)) (m ((c.tc : Thread nD τ).loc main_arg2)) := by
    refine (W4_arr m ρ c 2).trans ((Product1.array_eq (V3 m ρ) c).trans ?_)
    show Cert.ReferenceIdeal.ReadP.val_main_v30 (F := Ideal) (W3 m ρ c (Proc.devRef .tc main_arg0)) (W3 m ρ c (Proc.devRef .tc main_arg2)) = _
    rw [Stretches.arg0_entry0 m ρ c, Stretches.arg2_entry0 m ρ c]
  have h43 := Stretches.agg1_entry1 m ρ c h30
  have h45 : W6 m ρ c (Proc.devRef .tc main_v45) = Cert.ReferenceIdeal.ReadP.val_main_v47 (F := Ideal) (m ((c.tc : Thread nD τ).loc main_arg0)) (m ((c.tc : Thread nD τ).loc main_arg1)) (m ((c.tc : Thread nD τ).loc main_arg2)) (m ((c.tc : Thread nD τ).loc main_arg3)) := by
    refine (W6_arr m ρ c 2).trans ((Epilogue1.array_eq (V5 m ρ) c).trans ?_)
    show Epilogue1.rowwise (W5 m ρ c (Proc.devRef .tc main_v43)) (W5 m ρ c (Proc.devRef .tc main_v44)) = _
    rw [h43, Stretches.row1_entry1 m ρ c]
    exact epilogue1_ref _ _ _ _
  have h46 : W7 m ρ c (Proc.devRef .tc main_v46) = Cert.ReferenceIdeal.ReadP.val_main_v48 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
    refine (W7_arr m ρ c 2).trans ((Product2.array_eq (V6 m ρ) c).trans ?_)
    show Product2.rowsTimes (W6 m ρ c (Proc.devRef .tc main_v45)) (W6 m ρ c (Proc.devRef .tc main_arg4)) = _
    rw [h45, Stretches.arg4_entry2 m ρ c]
    exact product2_ref _ _ _ _ _
  have h59 := Stretches.agg2_entry3 m ρ c h46
  refine (W9_arr m ρ c 2).trans ((Epilogue2.array_eq (V8 m ρ) c).trans ?_)
  show Epilogue2.rowwise (W8 m ρ c (Proc.devRef .tc main_v59)) (W8 m ρ c (Proc.devRef .tc main_v60)) = _
  rw [h59, Stretches.row2_entry3 m ρ c]
  exact epilogue2_ref _ _ _ _ _ _

end Cert.KernelIdeal.Bridge

end
-- ==== Proof.lean ====
/-
  A two-layer graph convolution: the kernel against its reference, on the extended reals.

  Both programs compute  out = Â · relu(Â · (X · W₁) + b₁) · W₂ + b₂  row by row, where Â · H stands for: gather the
  rows of H at the edges' sources (self-loops appended), scale row e by norm(e) = d(src e)^(-1/2) · d(dst e)^(-1/2), and
  scatter-add into the destinations. The edge bookkeeping and the two aggregations are the same host operations in
  both programs. The kernel differs in computing the two dense products and the two bias epilogues in four calls,
  each over 20 blocks of 5000 rows, with the products' operands rounded to a narrower format on the way in — the
  identity on the extended reals. A row block of a product is the product of the row block, and a pointwise
  operation commutes with restriction to rows, so each call leaves in its output exactly what the reference's one
  operation computes (Product1, Epilogue1, Product2, Epilogue2), the stretches between the calls carry the
  reference's stages forward (Stretches), and the result buffer ends at the reference's last stage (Bridge).
  Nothing here needs the inputs to be finite.

  The frames of the two kernel programs are the generated ones; the reference's frame is its run with the result
  dropped; the idealization rewrote no operation, so there is nothing to preserve.
-/
import proofs.«153278_j22428319219737_1_alg».proof.Defs
import proofs.«153278_j22428319219737_1_alg».proof.Proof.Gen.Kernel
import proofs.«153278_j22428319219737_1_alg».proof.Proof.Gen.Kernel.Skeleton
import proofs.«153278_j22428319219737_1_alg».proof.Proof.Gen.Kernel.Launch
import proofs.«153278_j22428319219737_1_alg».proof.Proof.Gen.Kernel.Points
import proofs.«153278_j22428319219737_1_alg».proof.Proof.Gen.Kernel.Frame
import proofs.«153278_j22428319219737_1_alg».proof.Proof.Gen.KernelIdeal
import proofs.«153278_j22428319219737_1_alg».proof.Proof.Gen.KernelIdeal.Skeleton
import proofs.«153278_j22428319219737_1_alg».proof.Proof.Gen.KernelIdeal.Launch
import proofs.«153278_j22428319219737_1_alg».proof.Proof.Gen.KernelIdeal.Points
import proofs.«153278_j22428319219737_1_alg».proof.Proof.Gen.KernelIdeal.Frame
import proofs.«153278_j22428319219737_1_alg».proof.Proof.Gen.ReferenceIdeal
import proofs.«153278_j22428319219737_1_alg».proof.Proof.Gen.Pre_finite_inputs
import proofs.«153278_j22428319219737_1_alg».proof.Proof.RefRunPatched
import proofs.«153278_j22428319219737_1_alg».proof.Proof.RefReadPatched
import proofs.«153278_j22428319219737_1_alg».proof.Proof.ResultRun
import proofs.«153278_j22428319219737_1_alg».proof.Proof.Bridge
import Idealize.ShloMosaic.Adequacy
import Idealize.ShloMosaic.Init

noncomputable section

namespace Cert.Proof

open Idealize.ShloMosaic Idealize.SL.Sem

theorem frame_kernel : Cert.frame_Kernel :=
  fun m ρ _ => Cert.Kernel.Gen.frame m ρ

theorem frame_kernelIdeal : Cert.frame_KernelIdeal :=
  fun m ρ _ => Cert.KernelIdeal.Gen.frame m ρ

/-- The reference's frame is its run with the result dropped. -/
theorem frame_reference : Cert.frame_ReferenceIdeal :=
  fun m ρ _ => (θ_run Cert.ReferenceIdeal.defs _ _).mono (fun _ h c => (h c).2) (Cert.ReferenceIdeal.ValueP.run (F := Ideal) m ρ)

/-- Both programs end with the result at the reference's last stage of the (agreeing) launch arguments. -/
theorem algebraic : Cert.algebraic_KernelIdeal_ReferenceIdeal := by
  intro m ρ m' ρ' _ hagree
  refine ⟨fun c => Cert.ReferenceIdeal.ReadP.val_main_v64 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Bridge.result_eq m ρ c), (h c).2⟩)
      (Cert.KernelIdeal.ResultRun.run (F := Ideal) m ρ)
  · refine (θ_run Cert.ReferenceIdeal.defs _ _).mono (fun _ h c => ⟨?_, (h c).2⟩)
      (Cert.ReferenceIdeal.ValueP.run (F := Ideal) m' ρ')
    rw [(h c).1, Cert.ReferenceIdeal.ReadP.val_main_v64_eq, (hagree c).1, (hagree c).2.1, (hagree c).2.2.1,
      (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
